-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048 : Shape := ⟨2, ![32, 2048]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel
  bcast_S_S32x2048 : S_.BroadcastsInDim S32x2048 (![] : Fin 0 → Fin S32x2048.rank)
  reducesTo_S32x2048_S_d0_1 : S32x2048.ReducesTo [0, 1] S_

variable [Facts]

def fn_part1 {F : FTy → Type} [FloatOps F] (main_v13 : IVec S_ 1) (main_v16 : IVec S32x2048 1) : IVec S_ 1 :=
  let main_c_5 : IVec S_ 1 := constantI S_ 1 1#1
  let main_v17 : IVec S_ 1 := (fun x v => Host.reduce IntOp.andi x v reducesTo_S32x2048_S_d0_1 h_S_) main_v16 main_c_5
  let main_v18 : IVec S_ 1 := andi main_v13 main_v17
  main_v18

def fn {F : FTy → Type} [FloatOps F] (main_arg0 : FVec F S32x2048x64 .f32) (main_arg1 : FVec F S32x2048x64 .f32) (main_arg2 : FVec F S32x2048x64 .f32) (main_arg3 : FVec F S32x2048 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  let main_v14 : FVec F S32x2048 .f32 := Host.absf main_arg3
  let main_cst_4 : FVec F S_ .f32 := constant S_ .f32 0x7F800000#32
  let main_v15 : FVec F S32x2048 .f32 := broadcastInDim S32x2048 ![] bcast_S_S32x2048 main_cst_4
  let main_v16 : IVec S32x2048 1 := cmpf .olt main_v14 main_v15
  fn_part1 (F := F) main_v13 main_v16
-- ==== Kernel.lean ====
abbrev S32x2048x64 : Shape := ⟨3, ![32, 2048, 64]⟩
abbrev S32x2048 : Shape := ⟨2, ![32, 2048]⟩
abbrev S_ : Shape := ⟨0, ![]⟩
abbrev S32x1x2048 : Shape := ⟨3, ![32, 1, 2048]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x1x2048 : Shape := ⟨3, ![1, 1, 2048]⟩
abbrev S1x512x2048 : Shape := ⟨3, ![1, 512, 2048]⟩
abbrev S512x64 : Shape := ⟨2, ![512, 64]⟩
abbrev S2048x64 : Shape := ⟨2, ![2048, 64]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048, .f32⟩
  | .hbm, ⟨4, _⟩ => ⟨S_, .f32⟩
  | .hbm, ⟨5, _⟩ => ⟨S32x2048, .f32⟩
  | .hbm, ⟨6, _⟩ => ⟨S32x2048, .f32⟩
  | .hbm, ⟨7, _⟩ => ⟨S_, .f32⟩
  | .hbm, ⟨8, _⟩ => ⟨S32x2048, .f32⟩
  | .hbm, ⟨9, _⟩ => ⟨S32x2048, .f32⟩
  | .hbm, ⟨10, _⟩ => ⟨S32x1x2048, .f32⟩
  | .hbm, ⟨11, _⟩ => ⟨S32x2048x64, .f32⟩
  | .hbm, ⟨12, _⟩ => ⟨S32x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1x2048, .f32⟩
  | .local _ .vmem, ⟨7, _⟩ => ⟨S1x1x2048, .f32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S32x2048 : S_.BroadcastsInDim S32x2048 (![] : Fin 0 → Fin S32x2048.rank)
  shapeCasts_S32x2048_S32x1x2048 : S32x2048.ShapeCasts S32x1x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  bitsLt_bf16_f32 : FTy.bits .bf16 < FTy.bits .f32
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S32x1x2048.size a
  hwx0_3 : ∀ i : grid0.Coords, EltTy.bits .f32 = 32 ∨ (Rect.block (s := S32x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048 : Shape := ⟨2, ![32, 2048]⟩
abbrev S32x2048x2048 : Shape := ⟨3, ![32, 2048, 2048]⟩
abbrev S_ : Shape := ⟨0, ![]⟩
abbrev S32x1x2048 : Shape := ⟨3, ![32, 1, 2048]⟩
abbrev S32x2048x1 : Shape := ⟨3, ![32, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048, .f32⟩
  | .hbm, ⟨4, _⟩ => ⟨S32x2048x2048, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S32x1x2048, .f32⟩
  | .hbm, ⟨9, _⟩ => ⟨S_, .f32⟩
  | .hbm, ⟨10, _⟩ => ⟨S32x1x2048, .f32⟩
  | .hbm, ⟨11, _⟩ => ⟨S32x1x2048, .f32⟩
  | .hbm, ⟨12, _⟩ => ⟨S_, .f32⟩
  | .hbm, ⟨13, _⟩ => ⟨S32x1x2048, .f32⟩
  | .hbm, ⟨14, _⟩ => ⟨S32x1x2048, .f32⟩
  | .hbm, ⟨15, _⟩ => ⟨S32x2048x2048, .f32⟩
  | .hbm, ⟨16, _⟩ => ⟨S32x2048x2048, .f32⟩
  | .hbm, ⟨17, _⟩ => ⟨S_, .f32⟩
  | .hbm, ⟨18, _⟩ => ⟨S32x2048, .f32⟩
  | .hbm, ⟨19, _⟩ => ⟨S_, .f32⟩
  | .hbm, ⟨20, _⟩ => ⟨S32x2048, .f32⟩
  | .hbm, ⟨21, _⟩ => ⟨S32x2048, .f32⟩
  | .hbm, ⟨22, _⟩ => ⟨S32x2048x1, .f32⟩
  | .hbm, ⟨23, _⟩ => ⟨S32x2048x2048, .f32⟩
  | .hbm, ⟨24, _⟩ => ⟨S32x2048x2048, .f32⟩
  | .hbm, ⟨25, _⟩ => ⟨S32x2048x2048, .f32⟩
  | .hbm, ⟨26, _⟩ => ⟨S_, .f32⟩
  | .hbm, ⟨27, _⟩ => ⟨S32x2048, .f32⟩
  | .hbm, ⟨28, _⟩ => ⟨S32x2048x1, .f32⟩
  | .hbm, ⟨29, _⟩ => ⟨S32x2048x2048, .f32⟩
  | .hbm, ⟨30, _⟩ => ⟨S32x2048x2048, .f32⟩
  | .hbm, ⟨31, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  bcast_S32x2048_S32x1x2048_0_2 : S32x2048.BroadcastsInDim S32x1x2048 (![0, 2] : Fin 2 → Fin S32x1x2048.rank)
  bcast_S_S32x1x2048 : S_.BroadcastsInDim S32x1x2048 (![] : Fin 0 → Fin S32x1x2048.rank)
  bcast_S32x1x2048_S32x2048x2048_0_1_2 : S32x1x2048.BroadcastsInDim S32x2048x2048 (![0, 1, 2] : Fin 3 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.RowSoftmax.lean ====
/-
  Extended reals that are real numbers, and the one law of a softmax row this certificate needs.

  A softmax row over scores `s k` subtracts the row maximum `M`, exponentiates, and normalises by the sum
  `l = ∑ j, exp (s j - M)`.  One program multiplies `exp (s k - M)` by the reciprocal `1 / l`, the other divides
  `exp (s k - M)` by `l`.  On the extended reals the quotient by zero is a corner (`0 / 0` is not `0 · (1 / 0)`),
  so the two agree exactly when `l ≠ 0`.  When every score is a real number the maximum is not `+∞`, every
  `s j - M` is above `-∞`, every exponential is positive, and the sum of positive terms over a nonempty row is
  positive: `l ≠ 0`.
-/
import Idealize.ShloMosaic.PureOps.Ideal

noncomputable section

open scoped BigOperators

namespace Cert.Attn

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem IsReal.sum {ι : Type*} (s : Finset ι) (f : ι → EReal) : (∀ i ∈ s, IsReal (f i)) → IsReal (∑ i ∈ s, f i) := by
  classical
  refine Finset.induction_on s (fun _ => ⟨0, by simp⟩) ?_
  intro a s ha ih h
  rw [Finset.sum_insert ha]
  exact (h a (Finset.mem_insert_self a s)).add (ih fun i hi => h i (Finset.mem_insert_of_mem hi))

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

/-- The exponential is positive everywhere above `-∞`. -/
theorem exp_pos_of_ne_bot {x : EReal} (h : x ≠ ⊥) : 0 < Ideal.exp x := by
  induction x using EReal.rec with
  | bot => exact absurd rfl h
  | top => rw [Ideal.exp_top]; simpa using EReal.coe_lt_top 0
  | coe r => rw [Ideal.exp_coe]; exact EReal.coe_pos.mpr (Real.exp_pos r)

/-- The maximum of a row of entries none of which is `+∞` is not `+∞`. -/
theorem fold_max_ne_top {n : Nat} (s : Fin n → EReal) (h : ∀ k, s k ≠ ⊤) :
    (Finset.univ : Finset (Fin n)).fold max ⊥ s ≠ ⊤ := by
  apply ne_of_lt
  rw [Finset.fold_max_lt]
  exact ⟨bot_lt_top, fun k _ => lt_top_iff_ne_top.mpr (h k)⟩

/-- The normaliser of a softmax row of real scores is not zero. -/
theorem denom_ne_zero {n : Nat} (hn : 0 < n) (s : Fin n → EReal) (hs : ∀ k, IsReal (s k)) :
    (∑ j, Ideal.exp (s j - (Finset.univ : Finset (Fin n)).fold max ⊥ s)) ≠ 0 := by
  have hMt := fold_max_ne_top s fun k => (hs k).ne_top
  have hpos : ∀ j, 0 < Ideal.exp (s j - (Finset.univ : Finset (Fin n)).fold max ⊥ s) := fun j =>
    exp_pos_of_ne_bot (by
      rw [sub_eq_add_neg]
      intro h
      rcases EReal.add_eq_bot_iff.mp h with h | h
      · exact (hs j).ne_bot h
      · exact hMt (EReal.neg_eq_bot_iff.mp h))
  exact (lt_of_lt_of_le (hpos ⟨0, hn⟩)
    (Finset.single_le_sum (f := fun j => Ideal.exp (s j - (Finset.univ : Finset (Fin n)).fold max ⊥ s))
      (fun j _ => (hpos j).le) (Finset.mem_univ _))).ne'

/-- Off a zero divisor, multiplying by the reciprocal is dividing. -/
theorem mul_div_one_eq_div (p l : EReal) (hl : l ≠ 0) : p * Ideal.div 1 l = Ideal.div p l := by
  unfold Ideal.div
  rw [if_neg hl, if_neg hl, one_mul]

end Cert.Attn

end
-- ==== Proof.Literals.lean ====
/-
  The float literals the two programs spell, as the extended reals their bit patterns denote, and the law that
  joins the two spellings of a masked, scaled score.

  One program computes `d · (1/8) + (-C) · (1 - mask)`, the other `d / 8 - C · (1 - mask)`, with `C` the
  single-precision value nearest 1e30 and `-C` the same pattern with the sign bit set.  Division by the real 8 is
  multiplication by the real 1/8 on every extended real; a difference is the sum with the negation; and the sign
  leaves a product.  No finiteness is needed.
-/
import Idealize.ShloMosaic.PureOps.Ideal

noncomputable section

namespace Cert.Attn

open Idealize.ShloMosaic

/-- The pattern of `-∞`. -/
theorem ofBits_neg_inf : Ideal.ofBits .f32 0xFF800000#32 = ⊥ := by
  simp [Ideal.ofBits, Ideal.ieee]

/-- The pattern of `+∞`. -/
theorem ofBits_pos_inf : Ideal.ofBits .f32 0x7F800000#32 = ⊤ := by
  simp [Ideal.ofBits, Ideal.ieee]

/-- `0.0`. -/
theorem ofBits_zero : Ideal.ofBits .f32 0x00000000#32 = 0 := by
  simp [Ideal.ofBits, Ideal.ieee]

/-- `1.0`. -/
theorem ofBits_one : Ideal.ofBits .f32 0x3F800000#32 = 1 := by
  simp [Ideal.ofBits, Ideal.ieee, -EReal.coe_mul]; norm_num

/-- `0.125` is exactly one eighth. -/
theorem ofBits_eighth : Ideal.ofBits .f32 0x3E000000#32 = ((1 / 8 : ℝ) : EReal) := by
  simp [Ideal.ofBits, Ideal.ieee, -EReal.coe_mul]; norm_num

/-- `8.0`. -/
theorem ofBits_eight : Ideal.ofBits .f32 0x41000000#32 = ((8 : ℝ) : EReal) := by
  simp [Ideal.ofBits, Ideal.ieee, -EReal.coe_mul]; norm_num

/-- The mask weight `C` (the float nearest 1e30) is a real number and the other program's literal is its negation. -/
theorem ofBits_big : ∃ c : ℝ, Ideal.ofBits .f32 0x7149F2CA#32 = (c : EReal)
    ∧ Ideal.ofBits .f32 0xF149F2CA#32 = ((-c : ℝ) : EReal) := by
  refine ⟨13234890 * 2 ^ (76 : ℤ), ?_, ?_⟩
  · simp [Ideal.ofBits, Ideal.ieee, -EReal.coe_mul]
  · simp [Ideal.ofBits, Ideal.ieee, -EReal.coe_mul]

/-- THE SCORE, in its two spellings: scaled by the literal `0.125` and the negated weight added, or divided by the
    literal `8.0` and the weight subtracted. -/
theorem score_forms (d y : EReal) :
    d * Ideal.ofBits .f32 0x3E000000#32 + Ideal.ofBits .f32 0xF149F2CA#32 * y
      = Ideal.div d (Ideal.ofBits .f32 0x41000000#32) - Ideal.ofBits .f32 0x7149F2CA#32 * y := by
  obtain ⟨c, hc, hn⟩ := ofBits_big
  rw [ofBits_eighth, ofBits_eight, hc, hn, Ideal.div_coe (by norm_num : (8 : ℝ) ≠ 0), sub_eq_add_neg,
    EReal.coe_neg, EReal.neg_mul]

end Cert.Attn

end
-- ==== Proof.FiniteInputs.lean ====
/-
  The precondition read back: when the printed predicate "every entry of every input has absolute value below
  `+∞`" evaluates to true, every entry of each of the four input arrays is a real number.

  The predicate is the conjunction of four reductions by `and` over the comparison bits `|x| < +∞`.  A
  conjunction that is 1 has both conjuncts 1; a reduction by `and` that is 1 met only 1s; and on the extended
  reals `max x (-x) < ⊤` fails at both infinities, so it leaves exactly the reals.
-/
import proofs.«163407_j58016418234403_2_alg».proof.Pre_finite_inputs
import proofs.«163407_j58016418234403_2_alg».proof.Proof.RowSoftmax
import proofs.«163407_j58016418234403_2_alg».proof.Proof.Literals
import Idealize.ShloMosaic.Lib.ReduceAll
import Idealize.ShloMosaic.Lib.ValueIdx

noncomputable section

namespace Cert.Attn

open Idealize.ShloMosaic Idealize.ShloMosaic.ValueIdx Cert.Pre_finite_inputs

instance : Subsingleton Cert.Pre_finite_inputs.S_.Idx := ⟨fun _ _ => funext fun d => d.elim0⟩

/-- The comparison `|x| < +∞` is true only at a real number. -/
theorem isReal_of_abs_lt_inf (x : EReal)
    (h : Ideal.cmp .olt (max x (-x)) (Ideal.ofBits .f32 0x7F800000#32) = 1#1) : IsReal x := by
  rw [ofBits_pos_inf] at h
  induction x using EReal.rec with
  | bot => simp [Ideal.cmp] at h
  | top => simp [Ideal.cmp] at h
  | coe r => exact ⟨r, rfl⟩

variable [Cert.Pre_finite_inputs.Facts]

/-- Under the precondition every entry of the four inputs is a real number. -/
theorem isReal_of_pre (a0 a1 a2 : FVec Ideal S32x2048x64 .f32) (a3 : FVec Ideal S32x2048 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨fun i => isReal_of_abs_lt_inf _ (Host.reduce_andi_all _ _ _ _ _ h0' i),
    fun i => isReal_of_abs_lt_inf _ (Host.reduce_andi_all _ _ _ _ _ h1 i),
    fun i => isReal_of_abs_lt_inf _ (Host.reduce_andi_all _ _ _ _ _ h2 i),
    fun i => isReal_of_abs_lt_inf _ (Host.reduce_andi_all _ _ _ _ _ h3 i)⟩

end Cert.Attn

end
-- ==== Proof.RowForms.lean ====
/-
  A softmax row in the two forms the two programs compute it in, over a row of 2048 scores.

  Both take the row's maximum `M` (from `-∞`), the exponentials `exp (S j - M)` and their sum `l`.  One form
  multiplies `exp (S k - M)` by the reciprocal `1 / l`; the other divides it by `l`.  For a row of real scores
  `l ≠ 0` and the two forms are one value.
-/
import proofs.«163407_j58016418234403_2_alg».proof.Proof.RowSoftmax

noncomputable section

open scoped BigOperators

namespace Cert.Attn

open Idealize.ShloMosaic

/-- The row's maximum, from `-∞`. -/
def rowMax (S : Fin 2048 → EReal) : EReal := (Finset.univ : Finset (Fin 2048)).fold max ⊥ S

/-- The row's normaliser: the sum of the shifted exponentials. -/
def rowDen (S : Fin 2048 → EReal) : EReal := ∑ j : Fin 2048, Ideal.exp (S j - rowMax S)

/-- A softmax entry as the product with the reciprocal of the normaliser. -/
def rowMul (S : Fin 2048 → EReal) (k : Fin 2048) : EReal := Ideal.exp (S k - rowMax S) * Ideal.div 1 (rowDen S)

/-- A softmax entry as the quotient by the normaliser. -/
def rowDiv (S : Fin 2048 → EReal) (k : Fin 2048) : EReal := Ideal.div (Ideal.exp (S k - rowMax S)) (rowDen S)

/-- On a row of real scores the two forms agree. -/
theorem rowMul_eq_rowDiv (S : Fin 2048 → EReal) (hS : ∀ k, IsReal (S k)) (k : Fin 2048) : rowMul S k = rowDiv S k :=
  mul_div_one_eq_div _ _ (denom_ne_zero (by decide) S hS)

end Cert.Attn

end
-- ==== Proof.BlockValue.lean ====
/-
  What the kernel body computes from the blocks it loads, read one element at a time.

  From a query block `x0 : [1, 512, 64]`, a key block `x1 : [1, 2048, 64]`, a value block `x2 : [1, 2048, 64]` and a
  bias row `x3 : [1, 1, 2048]` the body forms the score tile
      S r k = (∑ d, x0 (0, r, d) · x1 (0, k, d)) · 0.125 + x3 (0, 0, k),
  takes each row's softmax in the multiply-by-reciprocal form, and multiplies the result into the values:
      out r e = ∑ k, softmax r k · x2 (0, k, e).
  Format changes are the identity on the extended reals, a matrix product into a zero accumulator is the plain sum
  of products, a lane sum is the sum over the lane, and a lane maximum is the fold of `max` from `-∞`.
-/
import proofs.«163407_j58016418234403_2_alg».proof.Proof.Gen.KernelIdeal.Skeleton
import proofs.«163407_j58016418234403_2_alg».proof.Proof.RowForms
import proofs.«163407_j58016418234403_2_alg».proof.Proof.Literals
import Idealize.ShloMosaic.Lib.ValueIdx
import Idealize.ShloMosaic.Lib.Pipeline.Value
import Idealize.ShloMosaic.PureOps.Ideal.Laws

noncomputable section

open scoped BigOperators

namespace Cert.Attn

open Idealize.ShloMosaic Idealize.ShloMosaic.ValueIdx Cert.KernelIdeal Cert.KernelIdeal.Gen

/-! ## Layout steps at an index -/

/-- A length-512 vector cast to a column, read at row `r`. -/
theorem col_apply {α : Type} (v : S512.Idx → α) (h : S512.ShapeCasts S512x1) (r : Fin 512) :
    shapeCast S512x1 v h (ix2 r (0 : Fin 1)) = v (ix1 r) :=
  shapeCast_apply v h _ _ (by
    rw [Shape.rowMajor_val_one, Shape.rowMajor_val_two]; show r.val = r.val * 1 + 0; omega)

/-- A column broadcast along the lanes, read at `(r, k)`. -/
theorem colBroadcast_apply {α : Type} (w : S512x1.Idx → α) (h : S512x1.Broadcasts S512x2048) (r : Fin 512) (k : Fin 2048) :
    broadcastTo S512x2048 w h (ix2 r k) = w (ix2 r (0 : Fin 1)) :=
  broadcastTo_apply w h _ _ (fun a => by
    match a with
    | ⟨0, _⟩ => show r.val = if (512 : Nat) = 1 then 0 else r.val; rw [if_neg (by decide)]
    | ⟨1, _⟩ => show (0 : Nat) = if (1 : Nat) = 1 then 0 else k.val; rw [if_pos rfl])

/-- A row broadcast down the sublanes, read at `(r, k)`. -/
theorem rowBroadcast_apply {α : Type} (w : S1x2048.Idx → α) (h : S1x2048.Broadcasts S512x2048) (r : Fin 512) (k : Fin 2048) :
    broadcastTo S512x2048 w h (ix2 r k) = w (ix2 (0 : Fin 1) k) :=
  broadcastTo_apply w h _ _ (fun a => by
    match a with
    | ⟨0, _⟩ => show (0 : Nat) = if (1 : Nat) = 1 then 0 else r.val; rw [if_pos rfl]
    | ⟨1, _⟩ => show k.val = if (2048 : Nat) = 1 then 0 else k.val; rw [if_neg (by decide)])

/-- Dropping the unit leading axis of a query or output block. -/
theorem drop512x64_apply {α : Type} (v : S1x512x64.Idx → α) (h : S1x512x64.ShapeCasts S512x64) (r : Fin 512) (d : Fin 64) :
    shapeCast S512x64 v h (ix2 r d) = v (ix3 (0 : Fin 1) r d) :=
  shapeCast_apply v h _ _ (by
    rw [Shape.rowMajor_val_two, Shape.rowMajor_val_three]; show ((0 : Nat) * 512 + r.val) * 64 + d.val = r.val * 64 + d.val; omega)

/-- Dropping the unit leading axis of a key or value block. -/
theorem drop2048x64_apply {α : Type} (v : S1x2048x64.Idx → α) (h : S1x2048x64.ShapeCasts S2048x64) (k : Fin 2048) (d : Fin 64) :
    shapeCast S2048x64 v h (ix2 k d) = v (ix3 (0 : Fin 1) k d) :=
  shapeCast_apply v h _ _ (by
    rw [Shape.rowMajor_val_two, Shape.rowMajor_val_three]; show ((0 : Nat) * 2048 + k.val) * 64 + d.val = k.val * 64 + d.val; omega)

/-- Dropping the unit leading axis of the bias row. -/
theorem drop1x2048_apply {α : Type} (v : S1x1x2048.Idx → α) (h : S1x1x2048.ShapeCasts S1x2048) (k : Fin 2048) :
    shapeCast S1x2048 v h (ix2 (0 : Fin 1) k) = v (ix3 (0 : Fin 1) (0 : Fin 1) k) :=
  shapeCast_apply v h _ _ (by
    rw [Shape.rowMajor_val_two, Shape.rowMajor_val_three]; show ((0 : Nat) * 1 + 0) * 2048 + k.val = 0 * 2048 + k.val; omega)

/-! ## Lane reductions of a [512, 2048] tile -/

/-- The reduced index `r` with lane `k` put back is `(r, k)`. -/
theorem lift_row (h : S512x2048.Reduces [1] S512) (r : Fin 512) (k : Fin (S512x2048.size 1)) :
    h.lift (ix1 r) k = ix2 r (⟨k.val, k.isLt⟩ : Fin 2048) := by
  funext c; apply Fin.ext
  fin_cases c <;> rfl

/-- A lane sum of a tile, at row `r`. -/
theorem laneSum_apply (src : FVec Ideal S512x2048 .f32) (h : S512x2048.Reduces [1] S512) (hφ : FKind.Formats .f32)
    (hacc : (0x00000000#32 : BitVec 32) = 0x00000000#32) (r : Fin 512) :
    multiReduction .add [1] S512 src 0x00000000#32 h hφ hacc (ix1 r) = ∑ k : Fin 2048, src (ix2 r k) := by
  refine (Ideal.multiReduction_add_single src 0x00000000#32 h hφ hacc (ix1 r)).trans ?_
  exact Finset.sum_congr rfl fun k _ => congrArg src (lift_row h r k)

/-- A lane maximum of a tile, at row `r`: the fold of `max` from `-∞`. -/
theorem laneMax_apply (src : FVec Ideal S512x2048 .f32) (h : S512x2048.Reduces [1] S512) (hφ : FKind.Formats .f32)
    (hacc : (0xFF800000#32 : BitVec 32) = 0xFF800000#32) (r : Fin 512) :
    multiReduction .maximumf [1] S512 src 0xFF800000#32 h hφ hacc (ix1 r) = rowMax fun k => src (ix2 r k) := by
  refine (Ideal.multiReduction_maximumf_single src 0xFF800000#32 h hφ hacc (ix1 r)).trans ?_
  show (Finset.univ : Finset (Fin 2048)).fold max (Ideal.ofBits .f32 0xFF800000#32) (src ∘ h.lift (ix1 r)) = _
  rw [ofBits_neg_inf]
  exact congrArg (fun f => (Finset.univ : Finset (Fin 2048)).fold max ⊥ f) (funext fun k => congrArg src (lift_row h r k))

/-! ## The two matrix products, read at an index -/

/-- The scores' product `q · kᵀ`: its left operand is read at the output row … -/
theorem qk_lhs0 (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

/-- … and its right operand at the output column. -/
theorem qk_rhs0 (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

/-- `q · kᵀ` into a zero accumulator, at `(r, k)`: the sum over the 64 features of the products. -/
theorem qk_apply (A : FVec Ideal S512x64 .bf16) (B : FVec Ideal S2048x64 .bf16) (r : Fin 512) (k : Fin 2048) :
    matmul dot_S512x64_S2048x64_S512x2048_1_1_0_0_n_n none A B (constant S512x2048 .f32 0x00000000#32) (ix2 r k)
      = ∑ d : Fin 64, A (ix2 r d) * B (ix2 k d) := by
  simp only [matmul]
  rw [Ideal.matmul_constant_zero_apply,
    ← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 r k)
      ((contrEquiv1 dot_S512x64_S2048x64_S512x2048_1_1_0_0_n_n 64 rfl rfl).symm d) = ix2 r d :=
    funext fun a => Fin.ext (by
      match a with
      | ⟨0, _⟩ => exact qk_lhs0 _ _
      | ⟨1, _⟩ => exact (dot_S512x64_S2048x64_S512x2048_1_1_0_0_n_n.lhsIdx_val_of_single rfl _ _).trans hk)
  have er : dot_S512x64_S2048x64_S512x2048_1_1_0_0_n_n.rhsIdx (ix2 r k)
      ((contrEquiv1 dot_S512x64_S2048x64_S512x2048_1_1_0_0_n_n 64 rfl rfl).symm d) = ix2 k d :=
    funext fun a => Fin.ext (by
      match a with
      | ⟨0, _⟩ => exact qk_rhs0 _ _
      | ⟨1, _⟩ => exact (dot_S512x64_S2048x64_S512x2048_1_1_0_0_n_n.rhsIdx_val_of_single rfl _ _).trans hk)
  rw [el, er]

/-- The output's product `p · v`: its left operand is read at the output row … -/
theorem pv_lhs0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

/-- … and its right operand at the output column. -/
theorem pv_rhs1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- `p · v` into a zero accumulator, at `(r, e)`: the sum over the 2048 keys of the products. -/
theorem pv_apply (A : FVec Ideal S512x2048 .bf16) (B : FVec Ideal S2048x64 .bf16) (r : Fin 512) (e : Fin 64) :
    matmul dot_S512x2048_S2048x64_S512x64_1_0_0_1_n_n none A B (constant S512x64 .f32 0x00000000#32) (ix2 r e)
      = ∑ k : Fin 2048, A (ix2 r k) * B (ix2 k e) := by
  simp only [matmul]
  rw [Ideal.matmul_constant_zero_apply,
    ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r e)
      ((contrEquiv1 dot_S512x2048_S2048x64_S512x64_1_0_0_1_n_n 2048 rfl rfl).symm k) = ix2 r k :=
    funext fun a => Fin.ext (by
      match a with
      | ⟨0, _⟩ => exact pv_lhs0 _ _
      | ⟨1, _⟩ => exact (dot_S512x2048_S2048x64_S512x64_1_0_0_1_n_n.lhsIdx_val_of_single rfl _ _).trans hk)
  have er : dot_S512x2048_S2048x64_S512x64_1_0_0_1_n_n.rhsIdx (ix2 r e)
      ((contrEquiv1 dot_S512x2048_S2048x64_S512x64_1_0_0_1_n_n 2048 rfl rfl).symm k) = ix2 k e :=
    funext fun a => Fin.ext (by
      match a with
      | ⟨0, _⟩ => exact (dot_S512x2048_S2048x64_S512x64_1_0_0_1_n_n.rhsIdx_val_of_single rfl _ _).trans hk
      | ⟨1, _⟩ => exact pv_rhs1 _ _)
  rw [el, er]

/-! ## The body's values -/

/-- The score tile the body forms from its loaded blocks. -/
def scoreTile (x0 : Vec Ideal S1x512x64 .f32) (x1 : Vec Ideal S1x2048x64 .f32) (x3 : Vec Ideal S1x1x2048 .f32) :
    FVec Ideal S512x2048 .f32 :=
  addf (mulf (matmul dot_S512x64_S2048x64_S512x2048_1_1_0_0_n_n none
        (truncf .bf16 (shapeCast S512x64 x0 shapeCasts_S1x512x64_S512x64) bitsLt_bf16_f32)
        (truncf .bf16 (shapeCast S2048x64 x1 shapeCasts_S1x2048x64_S2048x64) bitsLt_bf16_f32)
        (constant S512x2048 .f32 0x00000000#32))
      (broadcast S512x2048 (Scalar.ofBits .f32 0x3E000000#32)))
    (broadcastTo S512x2048 (shapeCast S1x2048 x3 shapeCasts_S1x1x2048_S1x2048) broadcasts_S1x2048_S512x2048)

/-- The shifted exponentials of a score tile: each row minus its maximum, exponentiated. -/
def expTile (v : FVec Ideal S512x2048 .f32) : FVec Ideal S512x2048 .f32 :=
  exp (subf v (broadcastTo S512x2048 (shapeCast S512x1
    (multiReduction .maximumf [1] S512 v 0xFF800000#32 reduces_S512x2048_S512 (.inl rfl) rfl)
    shapeCasts_S512_S512x1) broadcasts_S512x1_S512x2048))

/-- The softmax of a score tile, each row's exponentials times the reciprocal of their sum. -/
def softmaxTile (v : FVec Ideal S512x2048 .f32) : FVec Ideal S512x2048 .f32 :=
  mulf (expTile v) (broadcastTo S512x2048 (divf (broadcast S512x1 (Scalar.ofBits .f32 0x3F800000#32))
    (shapeCast S512x1 (multiReduction .add [1] S512 (expTile v) 0x00000000#32 reduces_S512x2048_S512 (.inl rfl) rfl)
      shapeCasts_S512_S512x1)) broadcasts_S512x1_S512x2048)

/-- The attention payload is the softmax of the score tile. -/
theorem pay2_eq (x0 : Vec Ideal S1x512x64 .f32) (x1 : Vec Ideal S1x2048x64 .f32) (x3 : Vec Ideal S1x1x2048 .f32) :
    k0_pay2 (F := Ideal) x0 x1 x3 = softmaxTile (scoreTile x0 x1 x3) := rfl

/-- One score of the block: the scaled dot product of query row `r` and key row `k`, plus the bias at `k`. -/
def blockScore (x0 : Vec Ideal S1x512x64 .f32) (x1 : Vec Ideal S1x2048x64 .f32) (x3 : Vec Ideal S1x1x2048 .f32)
    (r : Fin 512) (k : Fin 2048) : EReal :=
  (∑ d : Fin 64, x0 (ix3 (0 : Fin 1) r d) * x1 (ix3 (0 : Fin 1) k d)) * Ideal.ofBits .f32 0x3E000000#32
    + x3 (ix3 (0 : Fin 1) (0 : Fin 1) k)

theorem scoreTile_apply (x0 : Vec Ideal S1x512x64 .f32) (x1 : Vec Ideal S1x2048x64 .f32) (x3 : Vec Ideal S1x1x2048 .f32)
    (r : Fin 512) (k : Fin 2048) : scoreTile x0 x1 x3 (ix2 r k) = blockScore x0 x1 x3 r k := by
  unfold scoreTile blockScore
  rw [addf_apply, mulf_apply, rowBroadcast_apply, drop1x2048_apply, qk_apply]
  simp only [truncf_apply, drop512x64_apply, drop2048x64_apply]
  rfl

/-- The shifted exponential at `(r, k)`. -/
theorem expTile_apply (v : FVec Ideal S512x2048 .f32) (r : Fin 512) (k : Fin 2048) :
    expTile v (ix2 r k) = Ideal.exp (v (ix2 r k) - rowMax fun j => v (ix2 r j)) := by
  unfold expTile
  show Ideal.exp (v (ix2 r k) - broadcastTo S512x2048 _ _ (ix2 r k)) = _
  rw [colBroadcast_apply, col_apply, laneMax_apply]

/-- THE SOFTMAX TILE at `(r, k)` is the softmax entry `k` of row `r`, in the multiply-by-reciprocal form. -/
theorem softmaxTile_apply (v : FVec Ideal S512x2048 .f32) (r : Fin 512) (k : Fin 2048) :
    softmaxTile v (ix2 r k) = rowMul (fun j => v (ix2 r j)) k := by
  unfold softmaxTile rowMul rowDen
  rw [mulf_apply, colBroadcast_apply, divf_apply, col_apply, laneSum_apply, expTile_apply]
  simp only [expTile_apply]
  show _ * Ideal.div (Ideal.ofBits .f32 0x3F800000#32) _ = _
  rw [ofBits_one]

/-- THE ATTENTION PAYLOAD at `(r, k)`. -/
theorem pay2_apply (x0 : Vec Ideal S1x512x64 .f32) (x1 : Vec Ideal S1x2048x64 .f32) (x3 : Vec Ideal S1x1x2048 .f32)
    (r : Fin 512) (k : Fin 2048) :
    k0_pay2 (F := Ideal) x0 x1 x3 (ix2 r k) = rowMul (blockScore x0 x1 x3 r) k := by
  rw [pay2_eq, softmaxTile_apply]
  exact congrArg (fun S => rowMul S k) (funext fun j => scoreTile_apply x0 x1 x3 r j)

/-- THE OUTPUT PAYLOAD at `(r, e)`: the attention row `r` against column `e` of the values. -/
theorem pay4_apply (x0 : Vec Ideal S1x512x64 .f32) (x1 x2 : Vec Ideal S1x2048x64 .f32) (x3 : Vec Ideal S1x1x2048 .f32)
    (r : Fin 512) (e : Fin 64) :
    k0_pay4 (F := Ideal) x0 x1 x2 x3 (ix2 r e)
      = ∑ k : Fin 2048, rowMul (blockScore x0 x1 x3 r) k * x2 (ix3 (0 : Fin 1) k e) := by
  unfold k0_pay4
  refine (pv_apply _ _ r e).trans ?_
  refine Finset.sum_congr rfl fun k _ => ?_
  rw [truncf_apply, truncf_apply, drop2048x64_apply, pay2_apply]

end Cert.Attn

end
-- ==== Proof.RefValue.lean ====
/-
  What the reference computes, read one element at a time.

  From queries `Q`, keys `K`, values `V : [32, 2048, 64]` and a mask `Mk : [32, 2048]` the reference forms the scores
      S b q k = (∑ d, Q (b, q, d) · K (b, k, d)) / 8 - C · (1 - Mk (b, k)),
  takes the softmax of each row `(b, q)` over `k` in the quotient form (the row maximum from `-∞`, the sum from `0`),
  and multiplies the rows into the values: `out (b, q, e) = ∑ k, attn (b, q, k) · V (b, k, e)`.
-/
import proofs.«163407_j58016418234403_2_alg».proof.Proof.Gen.ReferenceIdeal.Read
import proofs.«163407_j58016418234403_2_alg».proof.Proof.RowForms
import proofs.«163407_j58016418234403_2_alg».proof.Proof.Literals
import Idealize.ShloMosaic.Lib.ValueIdx
import Idealize.ShloMosaic.PureOps.Ideal.Laws

noncomputable section

open scoped BigOperators

namespace Cert.Attn

open Idealize.ShloMosaic Idealize.ShloMosaic.ValueIdx Cert.ReferenceIdeal Cert.ReferenceIdeal.Gen Cert.ReferenceIdeal.Read

/-- One score of the reference: the dot product of query row `(b, q)` and key row `(b, k)` over 8, minus the mask
    weight where key `k` of batch `b` is masked. -/
def refScore (Q K : S32x2048x64.Idx → EReal) (Mk : S32x2048.Idx → EReal) (b : Fin 32) (q k : Fin 2048) : EReal :=
  Ideal.div (∑ d : Fin 64, Q (ix3 b q d) * K (ix3 b k d)) (Ideal.ofBits .f32 0x41000000#32)
    - Ideal.ofBits .f32 0x7149F2CA#32 * (Ideal.ofBits .f32 0x3F800000#32 - Mk (ix2 b k))

/-- The masked, scaled scores at `(b, q, k)`. -/
theorem scores_apply (Q K : S32x2048x64.Idx → EReal) (Mk : S32x2048.Idx → EReal) (b : Fin 32) (q k : Fin 2048) :
    val_main_v9 (F := Ideal) Q K Mk (ix3 b q k) = refScore Q K Mk b q k := by
  have e1 : ∀ d, lidx_main_v0 (ix3 b q k) d = ix3 b q d := fun d => funext fun a => Fin.ext (by
    match a with | ⟨0, _⟩ => rfl | ⟨1, _⟩ => rfl | ⟨2, _⟩ => rfl)
  have e2 : ∀ d, ridx_main_v0 (ix3 b q k) d = ix3 b k d := fun d => funext fun a => Fin.ext (by
    match a with | ⟨0, _⟩ => rfl | ⟨1, _⟩ => rfl | ⟨2, _⟩ => rfl)
  have e3 : idx_main_v3 (idx_main_v8 (ix3 b q k)) = ix2 b k := funext fun a => Fin.ext (by
    match a with | ⟨0, _⟩ => rfl | ⟨1, _⟩ => rfl)
  rw [val_main_v9_apply, val_main_v2_apply, val_main_v0_apply, val_main_v1_apply, val_main_cst_apply,
    val_main_v8_apply, val_main_v7_apply, val_main_v6_apply, val_main_cst_1_apply, val_main_v5_apply,
    val_main_v4_apply, val_main_cst_0_apply, val_main_v3_apply]
  simp only [e1, e2, e3]
  rfl

/-- The reduced index `(b, q)` with key `k` put back is `(b, q, k)`. -/
theorem lift_key (h : S32x2048x2048.Reduces [2] S32x2048) (b : Fin 32) (q : Fin 2048) (k : Fin (S32x2048x2048.size 2)) :
    h.lift (ix2 b q) k = ix3 b q (⟨k.val, k.isLt⟩ : Fin 2048) := by
  funext c; apply Fin.ext
  fin_cases c <;> rfl

/-- The row maximum the reference subtracts, at `(b, q)`. -/
theorem rowMax_apply (Q K : S32x2048x64.Idx → EReal) (Mk : S32x2048.Idx → EReal) (b : Fin 32) (q : Fin 2048) :
    val_main_v12 (F := Ideal) Q K Mk (ix2 b q) = rowMax (refScore Q K Mk b q) := by
  rw [val_main_v12_apply, val_main_v11_apply, val_main_cst_3_apply]
  unfold val_main_v10
  rw [Host.reduce_eq_fold_single FloatOps.maximumf _ _ reducesTo_S32x2048x2048_S32x2048_d2
    (by decide : S32x2048x2048.Reduces [2] S32x2048) h_S_]
  show max (Ideal.ofBits .f32 0xFF800000#32)
    ((Finset.univ : Finset (Fin 2048)).fold max (Ideal.ofBits .f32 0xFF800000#32) _) = _
  rw [ofBits_neg_inf, max_bot_left]
  exact congrArg (fun f => (Finset.univ : Finset (Fin 2048)).fold max ⊥ f)
    (funext fun k => (congrArg (val_main_v9 (F := Ideal) Q K Mk) (lift_key _ b q k)).trans (scores_apply Q K Mk b q _))

/-- The shifted exponentials at `(b, q, k)`. -/
theorem exps_apply (Q K : S32x2048x64.Idx → EReal) (Mk : S32x2048.Idx → EReal) (b : Fin 32) (q k : Fin 2048) :
    val_main_v16 (F := Ideal) Q K Mk (ix3 b q k)
      = Ideal.exp (refScore Q K Mk b q k - rowMax (refScore Q K Mk b q)) := by
  have e : idx_main_v13 (idx_main_v14 (ix3 b q k)) = ix2 b q := funext fun a => Fin.ext (by
    match a with | ⟨0, _⟩ => rfl | ⟨1, _⟩ => rfl)
  rw [val_main_v16_apply, val_main_v15_apply, scores_apply, val_main_v14_apply, val_main_v13_apply, e, rowMax_apply]
  rfl

/-- The normaliser at `(b, q)`. -/
theorem den_apply (Q K : S32x2048x64.Idx → EReal) (Mk : S32x2048.Idx → EReal) (b : Fin 32) (q : Fin 2048) :
    val_main_v17 (F := Ideal) Q K Mk (ix2 b q) = rowDen (refScore Q K Mk b q) := by
  have e : ∀ k, idx_main_v17 (ix2 b q) k = ix3 b q k := fun k => funext fun a => Fin.ext (by
    match a with | ⟨0, _⟩ => rfl | ⟨1, _⟩ => rfl | ⟨2, _⟩ => rfl)
  rw [val_main_v17_apply, val_main_cst_4_apply]
  show Ideal.ofBits .f32 0x00000000#32 + _ = _
  rw [ofBits_zero, zero_add]
  unfold rowDen
  exact Finset.sum_congr rfl fun k _ => by rw [e, exps_apply]

/-- THE ATTENTION MATRIX of the reference at `(b, q, k)`: entry `k` of the softmax of row `(b, q)`, in the quotient form. -/
theorem attn_apply (Q K : S32x2048x64.Idx → EReal) (Mk : S32x2048.Idx → EReal) (b : Fin 32) (q k : Fin 2048) :
    val_main_v20 (F := Ideal) Q K Mk (ix3 b q k) = rowDiv (refScore Q K Mk b q) k := by
  have e : idx_main_v18 (idx_main_v19 (ix3 b q k)) = ix2 b q := funext fun a => Fin.ext (by
    match a with | ⟨0, _⟩ => rfl | ⟨1, _⟩ => rfl)
  rw [val_main_v20_apply, exps_apply, val_main_v19_apply, val_main_v18_apply, e, den_apply]
  rfl

/-- THE OUTPUT of the reference at `(b, q, e)`: the attention row `(b, q)` against column `e` of the values. -/
theorem out_apply (Q K V : S32x2048x64.Idx → EReal) (Mk : S32x2048.Idx → EReal) (b : Fin 32) (q : Fin 2048) (e : Fin 64) :
    val_main_v21 (F := Ideal) Q K V Mk (ix3 b q e)
      = ∑ k : Fin 2048, val_main_v20 (F := Ideal) Q K Mk (ix3 b q k) * V (ix3 b k e) := by
  have e1 : ∀ k, lidx_main_v21 (ix3 b q e) k = ix3 b q k := fun k => funext fun a => Fin.ext (by
    match a with | ⟨0, _⟩ => rfl | ⟨1, _⟩ => rfl | ⟨2, _⟩ => rfl)
  have e2 : ∀ k, ridx_main_v21 (ix3 b q e) k = ix3 b k e := fun k => funext fun a => Fin.ext (by
    match a with | ⟨0, _⟩ => rfl | ⟨1, _⟩ => rfl | ⟨2, _⟩ => rfl)
  rw [val_main_v21_apply]
  simp only [e1, e2]

end Cert.Attn

end
-- ==== Proof.BlockBridge.lean ====
/-
  One grid point's blocks against the whole arrays: when the loaded blocks are the rows of the argument arrays the
  grid point's index maps select, what the body computes at a block element is what the reference computes at the
  array element under it.

  For the scores this is the law of Literals (scaling by 0.125 is dividing by 8; adding the negated weight is
  subtracting the weight); for the softmax it is the law of RowForms, which needs the scores to be real numbers:
  they are, as sums and products of real entries and real literals.
-/
import proofs.«163407_j58016418234403_2_alg».proof.Proof.BlockValue
import proofs.«163407_j58016418234403_2_alg».proof.Proof.RefValue

noncomputable section

open scoped BigOperators

namespace Cert.Attn

open Idealize.ShloMosaic Idealize.ShloMosaic.ValueIdx

/-- With real inputs every score of the reference is a real number. -/
theorem refScore_isReal (Q K : Cert.ReferenceIdeal.S32x2048x64.Idx → EReal) (Mk : Cert.ReferenceIdeal.S32x2048.Idx → EReal)
    (hQ : ∀ i, IsReal (Q i)) (hK : ∀ i, IsReal (K i)) (hM : ∀ i, IsReal (Mk i)) (b : Fin 32) (q k : Fin 2048) :
    IsReal (refScore Q K Mk b q k) := by
  unfold refScore
  obtain ⟨c, hc, -⟩ := ofBits_big
  have h1 : IsReal (1 : EReal) := ⟨1, by simp⟩
  rw [ofBits_eight, Ideal.div_coe (by norm_num : (8 : ℝ) ≠ 0), hc, ofBits_one]
  exact ((IsReal.sum _ _ fun d _ => (hQ _).mul (hK _)).mul (IsReal.coe _)).sub
    ((IsReal.coe c).mul (h1.sub (hM _)))

section Block

variable (Q K V : Cert.ReferenceIdeal.S32x2048x64.Idx → EReal) (Mk : Cert.ReferenceIdeal.S32x2048.Idx → EReal)
  (x0 : Vec Ideal Cert.KernelIdeal.S1x512x64 .f32) (x1 x2 : Vec Ideal Cert.KernelIdeal.S1x2048x64 .f32)
  (x3 : Vec Ideal Cert.KernelIdeal.S1x1x2048 .f32) (b : Fin 32) (q0 : Nat) (hq0 : q0 + 512 ≤ 2048)

/-- The block's scores are the reference's scores of the rows the block holds. -/
theorem blockScore_eq_refScore (r : Fin 512)
    (h0 : ∀ d : Fin 64, x0 (ix3 (0 : Fin 1) r d) = Q (ix3 b (⟨q0 + r.val, by omega⟩ : Fin 2048) d))
    (h1 : ∀ (k : Fin 2048) (d : Fin 64), x1 (ix3 (0 : Fin 1) k d) = K (ix3 b k d))
    (h3 : ∀ k : Fin 2048, x3 (ix3 (0 : Fin 1) (0 : Fin 1) k)
      = Ideal.ofBits .f32 0xF149F2CA#32 * (Ideal.ofBits .f32 0x3F800000#32 - Mk (ix2 b k))) :
    blockScore x0 x1 x3 r = refScore Q K Mk b (⟨q0 + r.val, by omega⟩ : Fin 2048) := by
  funext k
  unfold blockScore refScore
  simp only [h0, h1, h3]
  exact score_forms _ _

/-- THE ATTENTION BLOCK: its entry `(r, k)` is the reference's attention matrix at `(b, q0 + r, k)`. -/
theorem attn_block (hQ : ∀ i, IsReal (Q i)) (hK : ∀ i, IsReal (K i)) (hM : ∀ i, IsReal (Mk i)) (r : Fin 512) (k : Fin 2048)
    (h0 : ∀ (r : Fin 512) (d : Fin 64), x0 (ix3 (0 : Fin 1) r d) = Q (ix3 b (⟨q0 + r.val, by omega⟩ : Fin 2048) d))
    (h1 : ∀ (k : Fin 2048) (d : Fin 64), x1 (ix3 (0 : Fin 1) k d) = K (ix3 b k d))
    (h3 : ∀ k : Fin 2048, x3 (ix3 (0 : Fin 1) (0 : Fin 1) k)
      = Ideal.ofBits .f32 0xF149F2CA#32 * (Ideal.ofBits .f32 0x3F800000#32 - Mk (ix2 b k))) :
    Cert.KernelIdeal.Gen.k0_pay2 (F := Ideal) x0 x1 x3 (ix2 r k)
      = Cert.ReferenceIdeal.Read.val_main_v20 (F := Ideal) Q K Mk (ix3 b (⟨q0 + r.val, by omega⟩ : Fin 2048) k) := by
  rw [pay2_apply, attn_apply, blockScore_eq_refScore Q K Mk x0 x1 x3 b q0 hq0 r (h0 r) h1 h3]
  exact rowMul_eq_rowDiv _ (fun j => refScore_isReal Q K Mk hQ hK hM b _ j) k

/-- THE OUTPUT BLOCK: its entry `(r, e)` is the reference's output at `(b, q0 + r, e)`. -/
theorem out_block (hQ : ∀ i, IsReal (Q i)) (hK : ∀ i, IsReal (K i)) (hM : ∀ i, IsReal (Mk i)) (r : Fin 512) (e : Fin 64)
    (h0 : ∀ (r : Fin 512) (d : Fin 64), x0 (ix3 (0 : Fin 1) r d) = Q (ix3 b (⟨q0 + r.val, by omega⟩ : Fin 2048) d))
    (h1 : ∀ (k : Fin 2048) (d : Fin 64), x1 (ix3 (0 : Fin 1) k d) = K (ix3 b k d))
    (h2 : ∀ (k : Fin 2048) (d : Fin 64), x2 (ix3 (0 : Fin 1) k d) = V (ix3 b k d))
    (h3 : ∀ k : Fin 2048, x3 (ix3 (0 : Fin 1) (0 : Fin 1) k)
      = Ideal.ofBits .f32 0xF149F2CA#32 * (Ideal.ofBits .f32 0x3F800000#32 - Mk (ix2 b k))) :
    Cert.KernelIdeal.Gen.k0_pay4 (F := Ideal) x0 x1 x2 x3 (ix2 r e)
      = Cert.ReferenceIdeal.Read.val_main_v21 (F := Ideal) Q K V Mk (ix3 b (⟨q0 + r.val, by omega⟩ : Fin 2048) e) := by
  rw [pay4_apply, out_apply]
  refine Finset.sum_congr rfl fun k _ => ?_
  rw [← pay2_apply, attn_block Q K Mk x0 x1 x3 b q0 hq0 hQ hK hM r k h0 h1 h3, h2]

end Block

end Cert.Attn

end
-- ==== Proof.BlockAt.lean ====
/-
  The element a grid point writes back at block index `y`, against the reference's value at the array index `i`
  under it: `i` is (the point's batch, the point's first query row plus `y`'s row, `y`'s column).  The stored
  vectors are the computed [512, ·] tiles re-laid as [1, 512, ·].
-/
import proofs.«163407_j58016418234403_2_alg».proof.Proof.BlockBridge

noncomputable section

namespace Cert.Attn

open Idealize.ShloMosaic Idealize.ShloMosaic.ValueIdx

section Block

variable (Q K V : Cert.ReferenceIdeal.S32x2048x64.Idx → EReal) (Mk : Cert.ReferenceIdeal.S32x2048.Idx → EReal)
  (x0 : Vec Ideal Cert.KernelIdeal.S1x512x64 .f32) (x1 x2 : Vec Ideal Cert.KernelIdeal.S1x2048x64 .f32)
  (x3 : Vec Ideal Cert.KernelIdeal.S1x1x2048 .f32) (b : Fin 32) (q0 : Nat) (hq0 : q0 + 512 ≤ 2048)

/-- The attention store at `y` is the reference's attention matrix at `i`. -/
theorem attn_at (hQ : ∀ i, IsReal (Q i)) (hK : ∀ i, IsReal (K i)) (hM : ∀ i, IsReal (Mk i))
    (y : Cert.KernelIdeal.S1x512x2048.Idx) (i : Cert.ReferenceIdeal.S32x2048x2048.Idx)
    (hi0 : (i 0).val = b.val) (hi1 : (i 1).val = q0 + (y 1).val) (hi2 : (i 2).val = (y 2).val)
    (h0 : ∀ (r : Fin 512) (d : Fin 64), x0 (ix3 (0 : Fin 1) r d) = Q (ix3 b (⟨q0 + r.val, by omega⟩ : Fin 2048) d))
    (h1 : ∀ (k : Fin 2048) (d : Fin 64), x1 (ix3 (0 : Fin 1) k d) = K (ix3 b k d))
    (h3 : ∀ k : Fin 2048, x3 (ix3 (0 : Fin 1) (0 : Fin 1) k)
      = Ideal.ofBits .f32 0xF149F2CA#32 * (Ideal.ofBits .f32 0x3F800000#32 - Mk (ix2 b k))) :
    Cert.KernelIdeal.Gen.k0_pay3 (F := Ideal) x0 x1 x3 y = Cert.ReferenceIdeal.Read.val_main_v20 (F := Ideal) Q K Mk i := by
  obtain ⟨z, r, k, rfl⟩ : ∃ (z : Fin 1) (r : Fin 512) (k : Fin 2048), y = ix3 z r k := ⟨y 0, y 1, y 2, eq_ix3 y⟩
  have hi : i = ix3 b (⟨q0 + r.val, by omega⟩ : Fin 2048) k := funext fun a => Fin.ext (by
    match a with | ⟨0, _⟩ => exact hi0 | ⟨1, _⟩ => exact hi1 | ⟨2, _⟩ => exact hi2)
  rw [hi, ← attn_block Q K Mk x0 x1 x3 b q0 hq0 hQ hK hM r k h0 h1 h3]
  unfold Cert.KernelIdeal.Gen.k0_pay3
  exact shapeCast_apply _ _ _ (ix2 r k) (by
    rw [Shape.rowMajor_val_two, Shape.rowMajor_val_three]
    show r.val * 2048 + k.val = (z.val * 512 + r.val) * 2048 + k.val
    have := z.isLt; omega)

/-- The output store at `y` is the reference's output at `i`. -/
theorem out_at (hQ : ∀ i, IsReal (Q i)) (hK : ∀ i, IsReal (K i)) (hM : ∀ i, IsReal (Mk i))
    (y : Cert.KernelIdeal.S1x512x64.Idx) (i : Cert.ReferenceIdeal.S32x2048x64.Idx)
    (hi0 : (i 0).val = b.val) (hi1 : (i 1).val = q0 + (y 1).val) (hi2 : (i 2).val = (y 2).val)
    (h0 : ∀ (r : Fin 512) (d : Fin 64), x0 (ix3 (0 : Fin 1) r d) = Q (ix3 b (⟨q0 + r.val, by omega⟩ : Fin 2048) d))
    (h1 : ∀ (k : Fin 2048) (d : Fin 64), x1 (ix3 (0 : Fin 1) k d) = K (ix3 b k d))
    (h2 : ∀ (k : Fin 2048) (d : Fin 64), x2 (ix3 (0 : Fin 1) k d) = V (ix3 b k d))
    (h3 : ∀ k : Fin 2048, x3 (ix3 (0 : Fin 1) (0 : Fin 1) k)
      = Ideal.ofBits .f32 0xF149F2CA#32 * (Ideal.ofBits .f32 0x3F800000#32 - Mk (ix2 b k))) :
    Cert.KernelIdeal.Gen.k0_pay1 (F := Ideal) (Cert.KernelIdeal.Gen.k0_pay4 (F := Ideal) x0 x1 x2 x3) y
      = Cert.ReferenceIdeal.Read.val_main_v21 (F := Ideal) Q K V Mk i := by
  obtain ⟨z, r, e, rfl⟩ : ∃ (z : Fin 1) (r : Fin 512) (e : Fin 64), y = ix3 z r e := ⟨y 0, y 1, y 2, eq_ix3 y⟩
  have hi : i = ix3 b (⟨q0 + r.val, by omega⟩ : Fin 2048) e := funext fun a => Fin.ext (by
    match a with | ⟨0, _⟩ => exact hi0 | ⟨1, _⟩ => exact hi1 | ⟨2, _⟩ => exact hi2)
  rw [hi, ← out_block Q K V Mk x0 x1 x2 x3 b q0 hq0 hQ hK hM r e h0 h1 h2 h3]
  unfold Cert.KernelIdeal.Gen.k0_pay1
  exact shapeCast_apply _ _ _ (ix2 r e) (by
    rw [Shape.rowMajor_val_two, Shape.rowMajor_val_three]
    show r.val * 64 + e.val = (z.val * 512 + r.val) * 64 + e.val
    have := z.isLt; omega)

end Block

end Cert.Attn

end
-- ==== Proof.ArrayValue.lean ====
/-
  From blocks to arrays: the two result arrays of the kernel after its run, as functions of the argument arrays.

  The grid has 32 × 4 points.  Point `(b, qi)` loads rows `512·qi … 512·qi + 511` of the queries of batch `b`, all
  keys and values of batch `b` and row `b` of the bias (which the host operations before the call compute as
  `(-C) · (1 - mask)`), and writes back rows `512·qi … 512·qi + 511` of batch `b` of both results.  These relations
  between the printed index maps are decided once over the 128 points.  Each element a point writes back is then
  the reference's value at the array index under it (BlockBridge), the written blocks cover both result arrays, and
  so each result array ends as the reference's whole-array function of the arguments.
-/
import proofs.«163407_j58016418234403_2_alg».proof.Proof.Gen.KernelIdeal.Value
import proofs.«163407_j58016418234403_2_alg».proof.Proof.BlockAt
import Idealize.ShloMosaic.Lib.StableHlo.Run
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.StableHlo Idealize.ShloMosaic.ValueIdx Cert.Attn
open Idealize.ShloMosaic.Pipeline (Dat)

variable (m : (ℓ : Loc nD τ sig) → Buf (Elt Ideal) ℓ) (ρ : Dev nD → PrngReg)

theorem zero_off : (![0, 0, 0] : Fin 3 → Nat) = fun _ => 0 := funext fun a => by fin_cases a <;> rfl

/-! ## The bias array the region finds -/

/-- The host operations before the call leave `(-C) · (1 - mask)`, re-laid as [32, 1, 2048], in the bias array. -/
theorem bias_eq (c : Dev nD) : (V m c main_v4 : S32x1x2048.Idx → EReal)
    = shapeCast S32x1x2048 (mulf (broadcastInDim S32x2048 ![] bcast_S_S32x2048 (constant (F := Ideal) S_ .f32 0xF149F2CA#32))
        (subf (broadcastInDim S32x2048 ![] bcast_S_S32x2048 (constant (F := Ideal) S_ .f32 0x3F800000#32))
          (m ((c : Thread nD τ).loc main_arg3)))) shapeCasts_S32x2048_S32x1x2048 := by
  dsimp only [Gen.V, Gen.hostOps0]
  after_results
  rfl

/-- The bias at `(b, 0, k)`. -/
theorem bias_apply (c : Dev nD) (b : Fin 32) (k : Fin 2048) :
    (V m c main_v4 : S32x1x2048.Idx → EReal) (ix3 b (0 : Fin 1) k)
      = Ideal.ofBits .f32 0xF149F2CA#32 * (Ideal.ofBits .f32 0x3F800000#32 - m ((c : Thread nD τ).loc main_arg3) (ix2 b k)) := by
  rw [bias_eq]
  exact shapeCast_apply _ _ _ (ix2 b k) (by
    rw [Shape.rowMajor_val_two, Shape.rowMajor_val_three]
    show b.val * 2048 + k.val = (b.val * 1 + 0) * 2048 + k.val; omega)

/-! ## The index maps, decided over the grid -/

/-- Every window's block index at a point, against the attention result's: the batch coordinate is shared, the
    query-tile coordinate is shared by the queries and both results, every other coordinate is zero. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (2 : Fin 3) = 0 ∧ win0_5.index t (0 : Fin 3) ≤ 31 ∧ win0_5.index t (1 : Fin 3) ≤ 3 :=
  (by decide +kernel : ∀ t : Fin grid0.N, _)

/-- Every (batch, query tile) is some point's. -/
theorem idx_onto : ∀ (q0 : Fin 32) (q1 : Fin 4), ∃ t : Fin cfg0.N, win0_5.index t = ![q0.val, q1.val, 0] :=
  (by decide +kernel : ∀ (q0 : Fin 32) (q1 : Fin 4), ∃ t : Fin grid0.N, win0_5.index t = ![q0.val, q1.val, 0])

/-! ## What a point finds in its input blocks -/

section Point

variable (c : Dev nD) (t : Fin cfg0.N)

/-- The query block: rows `512·qi + r` of batch `b`. -/
theorem qblock (hb : win0_5.index t (0 : Fin 3) < 32) (hq : win0_5.index t (1 : Fin 3) * 512 + 512 ≤ 2048) (r : Fin 512) (d : Fin 64) :
    iblk m c 0 t (ix3 (0 : Fin 1) r d)
      = m ((c : Thread nD τ).loc main_arg0) (ix3 (⟨win0_5.index t (0 : Fin 3), hb⟩ : Fin 32)
          (⟨win0_5.index t (1 : Fin 3) * 512 + r.val, by omega⟩ : Fin 2048) d) := by
  obtain ⟨e00, e01, e02, -⟩ := idx_facts t
  show V m c main_arg0 (((cfg0.win 0).blk t).view.emb (ix3 (0 : Fin 1) r d)) = _
  rw [V_main_arg0]
  refine congrArg _ (funext fun a => Fin.ext ?_)
  match a with
  | ⟨0, _⟩ => show win0_0.index t (0 : Fin 3) * 1 + 1 * 0 = win0_5.index t (0 : Fin 3); omega
  | ⟨1, _⟩ => show win0_0.index t (1 : Fin 3) * 512 + 1 * r.val = win0_5.index t (1 : Fin 3) * 512 + r.val; omega
  | ⟨2, _⟩ => show win0_0.index t (2 : Fin 3) * 64 + 1 * d.val = d.val; omega

/-- The key block: all keys of batch `b`. -/
theorem kblock (hb : win0_5.index t (0 : Fin 3) < 32) (k : Fin 2048) (d : Fin 64) :
    iblk m c 1 t (ix3 (0 : Fin 1) k d)
      = m ((c : Thread nD τ).loc main_arg1) (ix3 (⟨win0_5.index t (0 : Fin 3), hb⟩ : Fin 32) k d) := by
  obtain ⟨-, -, -, e10, e11, e12, -⟩ := idx_facts t
  show V m c main_arg1 (((cfg0.win 1).blk t).view.emb (ix3 (0 : Fin 1) k d)) = _
  rw [V_main_arg1]
  refine congrArg _ (funext fun a => Fin.ext ?_)
  match a with
  | ⟨0, _⟩ => show win0_1.index t (0 : Fin 3) * 1 + 1 * 0 = win0_5.index t (0 : Fin 3); omega
  | ⟨1, _⟩ => show win0_1.index t (1 : Fin 3) * 2048 + 1 * k.val = k.val; omega
  | ⟨2, _⟩ => show win0_1.index t (2 : Fin 3) * 64 + 1 * d.val = d.val; omega

/-- The value block: all values of batch `b`. -/
theorem vblock (hb : win0_5.index t (0 : Fin 3) < 32) (k : Fin 2048) (d : Fin 64) :
    iblk m c 2 t (ix3 (0 : Fin 1) k d)
      = m ((c : Thread nD τ).loc main_arg2) (ix3 (⟨win0_5.index t (0 : Fin 3), hb⟩ : Fin 32) k d) := by
  obtain ⟨-, -, -, -, -, -, e20, e21, e22, -⟩ := idx_facts t
  show V m c main_arg2 (((cfg0.win 2).blk t).view.emb (ix3 (0 : Fin 1) k d)) = _
  rw [V_main_arg2]
  refine congrArg _ (funext fun a => Fin.ext ?_)
  match a with
  | ⟨0, _⟩ => show win0_2.index t (0 : Fin 3) * 1 + 1 * 0 = win0_5.index t (0 : Fin 3); omega
  | ⟨1, _⟩ => show win0_2.index t (1 : Fin 3) * 2048 + 1 * k.val = k.val; omega
  | ⟨2, _⟩ => show win0_2.index t (2 : Fin 3) * 64 + 1 * d.val = d.val; omega

/-- The bias block: row `b` of `(-C) · (1 - mask)`. -/
theorem bblock (hb : win0_5.index t (0 : Fin 3) < 32) (k : Fin 2048) :
    iblk m c 3 t (ix3 (0 : Fin 1) (0 : Fin 1) k)
      = Ideal.ofBits .f32 0xF149F2CA#32 * (Ideal.ofBits .f32 0x3F800000#32
          - m ((c : Thread nD τ).loc main_arg3) (ix2 (⟨win0_5.index t (0 : Fin 3), hb⟩ : Fin 32) k)) := by
  obtain ⟨-, -, -, -, -, -, -, -, -, e30, e31, e32, -⟩ := idx_facts t
  show V m c main_v4 (((cfg0.win 3).blk t).view.emb (ix3 (0 : Fin 1) (0 : Fin 1) k)) = _
  rw [← bias_apply m c ⟨win0_5.index t (0 : Fin 3), hb⟩ k]
  refine congrArg _ (funext fun a => Fin.ext ?_)
  match a with
  | ⟨0, _⟩ => show win0_3.index t (0 : Fin 3) * 1 + 1 * 0 = win0_5.index t (0 : Fin 3); omega
  | ⟨1, _⟩ => show win0_3.index t (1 : Fin 3) * 1 + 1 * 0 = 0; omega
  | ⟨2, _⟩ => show win0_3.index t (2 : Fin 3) * 2048 + 1 * k.val = k.val; omega

end Point

/-! ## What a point writes back -/

section Flushed

variable (c : Dev nD)

/-- WHAT POINT `t` WRITES BACK to the attention result is block `t` of the reference's attention matrix of the
    argument arrays. -/
theorem flushed5_eq (hQ : ∀ i, IsReal (m ((c : Thread nD τ).loc main_arg0) i))
    (hK : ∀ i, IsReal (m ((c : Thread nD τ).loc main_arg1) i)) (hM : ∀ i, IsReal (m ((c : Thread nD τ).loc main_arg3) i))
    (t : Fin cfg0.N) :
    (dats m 0 c).flushed 5 t = ((cfg0.win 5).blk t).view.read (Elt Ideal)
      (Cert.ReferenceIdeal.Read.val_main_v20 (F := Ideal) (m ((c : Thread nD τ).loc main_arg0))
        (m ((c : Thread nD τ).loc main_arg1)) (m ((c : Thread nD τ).loc main_arg3))) := by
  rw [Value.flushed5]
  unfold out0_5
  rw [View.canon_unit_zero zero_off]
  simp only [View.ld_unit_zero (S := S1x512x64) zero_off, View.ld_unit_zero (S := S1x2048x64) zero_off,
    View.ld_unit_zero (S := S1x1x2048) zero_off]
  obtain ⟨-, -, -, -, -, -, -, -, -, -, -, -, -, -, -, e52, b50, b51⟩ := idx_facts t
  funext j
  show k0_pay3 (iblk m c 0 t) (iblk m c 1 t) (iblk m c 3 t) j
    = Cert.ReferenceIdeal.Read.val_main_v20 (F := Ideal) _ _ _ (((cfg0.win 5).blk t).view.emb j)
  refine attn_at _ _ _ (iblk m c 0 t) (iblk m c 1 t) (iblk m c 3 t) ⟨win0_5.index t (0 : Fin 3), by omega⟩
    (win0_5.index t (1 : Fin 3) * 512) (by omega) hQ hK hM j _ ?_ ?_ ?_
    (qblock m c t (by omega) (by omega)) (kblock m c t (by omega)) (bblock m c t (by omega))
  · show win0_5.index t (0 : Fin 3) * 1 + 1 * (j 0).val = win0_5.index t (0 : Fin 3)
    have hj : (j 0).val < 1 := (j 0).isLt; omega
  · show win0_5.index t (1 : Fin 3) * 512 + 1 * (j 1).val = win0_5.index t (1 : Fin 3) * 512 + (j 1).val; omega
  · show win0_5.index t (2 : Fin 3) * 2048 + 1 * (j 2).val = (j 2).val; omega

/-- WHAT POINT `t` WRITES BACK to the output result is block `t` of the reference's output of the argument arrays. -/
theorem flushed4_eq (hQ : ∀ i, IsReal (m ((c : Thread nD τ).loc main_arg0) i))
    (hK : ∀ i, IsReal (m ((c : Thread nD τ).loc main_arg1) i)) (hM : ∀ i, IsReal (m ((c : Thread nD τ).loc main_arg3) i))
    (t : Fin cfg0.N) :
    (dats m 0 c).flushed 4 t = ((cfg0.win 4).blk t).view.read (Elt Ideal)
      (Cert.ReferenceIdeal.Read.val_main_v21 (F := Ideal) (m ((c : Thread nD τ).loc main_arg0))
        (m ((c : Thread nD τ).loc main_arg1)) (m ((c : Thread nD τ).loc main_arg2)) (m ((c : Thread nD τ).loc main_arg3))) := by
  rw [Value.flushed4]
  unfold out0_4
  rw [View.canon_unit_zero zero_off]
  simp only [View.ld_unit_zero (S := S1x512x64) zero_off, View.ld_unit_zero (S := S1x2048x64) zero_off,
    View.ld_unit_zero (S := S1x1x2048) zero_off]
  obtain ⟨-, -, -, -, -, -, -, -, -, -, -, -, e40, e41, e42, e52, b50, b51⟩ := idx_facts t
  funext j
  show k0_pay1 (k0_pay4 (iblk m c 0 t) (iblk m c 1 t) (iblk m c 2 t) (iblk m c 3 t)) j
    = Cert.ReferenceIdeal.Read.val_main_v21 (F := Ideal) _ _ _ _ (((cfg0.win 4).blk t).view.emb j)
  refine out_at _ _ _ _ (iblk m c 0 t) (iblk m c 1 t) (iblk m c 2 t) (iblk m c 3 t) ⟨win0_5.index t (0 : Fin 3), by omega⟩
    (win0_5.index t (1 : Fin 3) * 512) (by omega) hQ hK hM j _ ?_ ?_ ?_
    (qblock m c t (by omega) (by omega)) (kblock m c t (by omega)) (vblock m c t (by omega)) (bblock m c t (by omega))
  · show win0_4.index t (0 : Fin 3) * 1 + 1 * (j 0).val = win0_5.index t (0 : Fin 3)
    have hj : (j 0).val < 1 := (j 0).isLt; omega
  · show win0_4.index t (1 : Fin 3) * 512 + 1 * (j 1).val = win0_5.index t (1 : Fin 3) * 512 + (j 1).val; omega
  · show win0_4.index t (2 : Fin 3) * 64 + 1 * (j 2).val = (j 2).val; omega

end Flushed

/-! ## The written blocks cover both results -/

/-- An index of the attention result is in point `t`'s block iff each coordinate is in the block's range. -/
theorem mem_blk5 (t : Fin cfg0.N) (i : S32x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v5_1).slice (win0_5.rect t)).set ↔ _
  rw [View.set_slice_whole, Rect.mem_set_unit]
  exact Iff.rfl

/-- An index of the output result is in point `t`'s block iff each coordinate is in the block's range. -/
theorem mem_blk4 (t : Fin cfg0.N) (i : S32x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v5_0).slice (win0_4.rect t)).set ↔ _
  rw [View.set_slice_whole, Rect.mem_set_unit]
  exact Iff.rfl

/-- Row `q` of batch `b` of the attention result is written by the point `(b, q / 512)`. -/
theorem cover5 (i : S32x2048x2048.Idx) :
    ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Row `q` of batch `b` of the output result is written by the point `(b, q / 512)`. -/
theorem cover4 (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  obtain ⟨-, -, -, -, -, -, -, -, -, -, -, -, e40, e41, e42, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-! ## The arrays after the run -/

section Final

variable (c : Dev nD)

/-- The attention result after the run is the reference's attention matrix of the argument arrays. -/
theorem final5 (hQ : ∀ i, IsReal (m ((c : Thread nD τ).loc main_arg0) i))
    (hK : ∀ i, IsReal (m ((c : Thread nD τ).loc main_arg1) i)) (hM : ∀ i, IsReal (m ((c : Thread nD τ).loc main_arg3) i)) :
    (dats m 0 c).arrAt 5 cfg0.N = Cert.ReferenceIdeal.Read.val_main_v20 (F := Ideal) (m ((c : Thread nD τ).loc main_arg0))
        (m ((c : Thread nD τ).loc main_arg1)) (m ((c : Thread nD τ).loc main_arg3)) :=
  (dats m 0 c).arrAt_eq_of_cover 5 _ (fun t _ => flushed5_eq m c hQ hK hM t) cover5

/-- The output result after the run is the reference's output of the argument arrays. -/
theorem final4 (hQ : ∀ i, IsReal (m ((c : Thread nD τ).loc main_arg0) i))
    (hK : ∀ i, IsReal (m ((c : Thread nD τ).loc main_arg1) i)) (hM : ∀ i, IsReal (m ((c : Thread nD τ).loc main_arg3) i)) :
    (dats m 0 c).arrAt 4 cfg0.N = Cert.ReferenceIdeal.Read.val_main_v21 (F := Ideal) (m ((c : Thread nD τ).loc main_arg0))
        (m ((c : Thread nD τ).loc main_arg1)) (m ((c : Thread nD τ).loc main_arg2)) (m ((c : Thread nD τ).loc main_arg3)) :=
  (dats m 0 c).arrAt_eq_of_cover 4 _ (fun t _ => flushed4_eq m c hQ hK hM t) cover4

end Final

/-- THE KERNEL'S RUN with real inputs: every weakly fair execution terminates with both results at the reference's
    functions of the argument arrays, the arguments unchanged. -/
theorem run (hreal : ∀ c : Dev nD, (∀ i, IsReal (m ((c : Thread nD τ).loc main_arg0) i))
      ∧ (∀ i, IsReal (m ((c : Thread nD τ).loc main_arg1) i)) ∧ (∀ i, IsReal (m ((c : Thread nD τ).loc main_arg3) i))) :
    θ_run defs (onTc (τ := τ) (main (F := Ideal))) ⟨m, fun _ => 0, ρ⟩ fun r => ∀ c : Dev nD,
      r.2.mem ((c : Thread nD τ).loc main_v5_0) = Cert.ReferenceIdeal.Read.val_main_v21 (F := Ideal)
          (m ((c : Thread nD τ).loc main_arg0)) (m ((c : Thread nD τ).loc main_arg1)) (m ((c : Thread nD τ).loc main_arg2))
          (m ((c : Thread nD τ).loc main_arg3))
      ∧ r.2.mem ((c : Thread nD τ).loc main_v5_1) = Cert.ReferenceIdeal.Read.val_main_v20 (F := Ideal)
          (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c (hreal c).1 (hreal c).2.1 (hreal c).2.2),
      (h c).2.1.trans (final5 m c (hreal c).1 (hreal c).2.1 (hreal c).2.2), (h c).2.2⟩)
    (Value.run_blocks m ρ)

end Cert.KernelIdeal.ArrayValue

end
-- ==== Proof.lean ====
/-
  Scaled dot-product attention with an additive key mask, tiled over (batch, query tile), against its plain
  whole-array reference: both results — the attention matrix and the attention-weighted values — agree as
  extended reals, element by element, whenever every input entry is a real number.

  The kernel's scores are `(q · kᵀ) · 0.125 + (-C) · (1 - mask)`, the reference's `(q · kᵀ) / 8 - C · (1 - mask)`:
  one value on every extended real (Proof/Literals.lean).  Each row's softmax subtracts the row maximum,
  exponentiates and normalises; the kernel multiplies by the reciprocal of the normaliser where the reference
  divides by it, and the two agree because for real scores the normaliser is a sum of positive terms, hence not
  zero (Proof/RowSoftmax.lean, Proof/RowForms.lean) — this is where the precondition is used
  (Proof/FiniteInputs.lean reads it back as "every entry is real").  The second result is the same sum of
  products on both sides once the attention matrices agree.  Proof/BlockValue.lean reads the kernel body at an
  element of its blocks, Proof/RefValue.lean the reference at an element of its arrays, Proof/BlockBridge.lean and
  Proof/BlockAt.lean join the two at one grid point, and Proof/ArrayValue.lean goes from the blocks the 128 grid
  points write back to the whole result arrays.
-/
import proofs.«163407_j58016418234403_2_alg».proof.Defs
import proofs.«163407_j58016418234403_2_alg».proof.Proof.Gen.Kernel
import proofs.«163407_j58016418234403_2_alg».proof.Proof.Gen.Kernel.Skeleton
import proofs.«163407_j58016418234403_2_alg».proof.Proof.Gen.Kernel.Launch
import proofs.«163407_j58016418234403_2_alg».proof.Proof.Gen.Kernel.Points
import proofs.«163407_j58016418234403_2_alg».proof.Proof.Gen.Kernel.Frame
import proofs.«163407_j58016418234403_2_alg».proof.Proof.Gen.KernelIdeal
import proofs.«163407_j58016418234403_2_alg».proof.Proof.Gen.KernelIdeal.Skeleton
import proofs.«163407_j58016418234403_2_alg».proof.Proof.Gen.KernelIdeal.Launch
import proofs.«163407_j58016418234403_2_alg».proof.Proof.Gen.KernelIdeal.Points
import proofs.«163407_j58016418234403_2_alg».proof.Proof.Gen.KernelIdeal.Frame
import proofs.«163407_j58016418234403_2_alg».proof.Proof.Gen.ReferenceIdeal
import proofs.«163407_j58016418234403_2_alg».proof.Proof.Gen.Pre_finite_inputs
import proofs.«163407_j58016418234403_2_alg».proof.Proof.Gen.KernelIdeal.Value
import proofs.«163407_j58016418234403_2_alg».proof.Proof.Gen.ReferenceIdeal.Run
import proofs.«163407_j58016418234403_2_alg».proof.Proof.Gen.ReferenceIdeal.Read
import proofs.«163407_j58016418234403_2_alg».proof.Proof.FiniteInputs
import proofs.«163407_j58016418234403_2_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on real arguments, the kernel ends with both results at the reference's whole-array
    functions of its arguments, and the reference ends with the same functions of the same arguments. -/
theorem algebraic : Cert.algebraic_KernelIdeal_ReferenceIdeal := by
  intro m ρ m' ρ' hpre hagree
  have hreal : ∀ c : Dev Cert.KernelIdeal.nD,
      (∀ i, Cert.Attn.IsReal (m ((c : Thread Cert.KernelIdeal.nD Cert.KernelIdeal.τ).loc Cert.KernelIdeal.main_arg0) i))
      ∧ (∀ i, Cert.Attn.IsReal (m ((c : Thread Cert.KernelIdeal.nD Cert.KernelIdeal.τ).loc Cert.KernelIdeal.main_arg1) i))
      ∧ (∀ i, Cert.Attn.IsReal (m ((c : Thread Cert.KernelIdeal.nD Cert.KernelIdeal.τ).loc Cert.KernelIdeal.main_arg3) i)) :=
    fun c => by
      obtain ⟨h0, h1, -, h3⟩ := Cert.Attn.isReal_of_pre _ _ _ _ (hpre c)
      exact ⟨h0, h1, h3⟩
  refine ⟨_, _, Cert.KernelIdeal.ArrayValue.run m ρ hreal, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v21_eq, (hagree c).1, (hagree c).2.1, (hagree c).2.2.1, (hagree c).2.2.2]
  · rw [Cert.ReferenceIdeal.Read.val_main_v20_eq, (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
